-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1 : Shape := ⟨2, ![2048, 1]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x2048 .f32) (main_arg1 : FVec F S16384x2048 .f32) (main_arg2 : FVec F S2048x1 .f32) (main_arg3 : FVec F S2048 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S16384x2048 : Shape := ⟨2, ![16384, 2048]⟩
abbrev S2048x1 : Shape := ⟨2, ![2048, 1]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x1, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x1_S1x2048 : S2048x1.ShapeCasts S1x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1 : Shape := ⟨2, ![2048, 1]⟩
abbrev S2048 : Shape := ⟨1, ![2048]⟩
abbrev S16384x1 : Shape := ⟨2, ![16384, 1]⟩
abbrev S_ : Shape := ⟨0, ![]⟩
abbrev S16384 : Shape := ⟨1, ![16384]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x1, .f32⟩
  | .hbm, ⟨3, _⟩ => ⟨S2048, .f32⟩
  | .hbm, ⟨4, _⟩ => ⟨S2048, .f32⟩
  | .hbm, ⟨5, _⟩ => ⟨S16384x1, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S16384x1_S16384x2048_0_1 : S16384x1.BroadcastsInDim S16384x2048 (![0, 1] : Fin 2 → Fin S16384x2048.rank)
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x1_S16384x1_1_0_0_1_n_n_wf : DotDims.WF S16384x2048 S2048x1 S16384x1 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.CrossNormSpec.lean ====
/-
  One row of the cross layer followed by layer normalisation, on the extended reals.

  For a row index r the cross term is  s_r = Σ_k x1[r,k] · w[k,0],  the row to be normalised is
  y[r,h] = x0[r,h] · s_r + x0[r,h],  and the result is
      out[r,h] = (y[r,h] − μ_r) · rsqrt(σ²_r + ε) · γ[h] + β[h],
  μ_r = (0 + Σ_k y[r,k]) / 2048,   σ²_r = (0 + Σ_k (y[r,k] − μ_r)²) / 2048,
  with 0, 2048 and ε the values of the float words both programs spell (ε is never evaluated).
  One of the two programs spells the row as  x0[r,h] · ((0 + s_r) + 1)  instead: the two spellings are one function as
  soon as x0, x1 and w hold real numbers (distributivity; it fails at infinities, e.g. x0 = +∞, s = −1/2), which is
  `crossRowFolded_eq` below.
-/
import Idealize.ShloMosaic.PureOps.Ideal
import Idealize.ShloMosaic.PureOps.Ideal.Laws
import Idealize.ShloMosaic.Lib.ValueIdx
import Idealize.ShloMosaic.Lib.IdealHost

noncomputable section

namespace Cert.CrossNorm

open Idealize.ShloMosaic Idealize.ShloMosaic.ValueIdx

variable {ι : Type} [Fintype ι]

/-- The float words the programs spell, read as extended reals: 0, 1, 2048 and the normalisation's ε. -/
abbrev zeroW : EReal := Ideal.ofBits .f32 0x00000000#32
abbrev oneW : EReal := Ideal.ofBits .f32 0x3F800000#32
abbrev widthW : EReal := Ideal.ofBits .f32 0x45000000#32
abbrev epsW : EReal := Ideal.ofBits .f32 0x2B8CBCCC#32

/-- The mean of a row as both programs compute it: the sum from the zero word, divided by the row's length word. -/
def rowMean (y : ι → EReal) : EReal := Ideal.div (zeroW + ∑ k, y k) widthW

/-- Layer normalisation of the row `y` with scale `g` and shift `b`, at column `h`:
    (y h − μ) · rsqrt(σ² + ε) · g h + b h, μ the row's mean and σ² the mean of the squared deviations. -/
def rowNorm (y g b : ι → EReal) (h : ι) : EReal :=
  (y h - rowMean y) * Ideal.rsqrt (rowMean (fun k => (y k - rowMean y) * (y k - rowMean y)) + epsW) * g h + b h

/-- The cross row with its residual: x0 h · (Σ_k x1 k · w k) + x0 h. -/
def crossRow (x0 x1 w : ι → EReal) (h : ι) : EReal := x0 h * (∑ k, x1 k * w k) + x0 h

/-- The same row with the residual folded into the scale: x0 h · ((0 + Σ_k x1 k · w k) + 1). -/
def crossRowFolded (x0 x1 w : ι → EReal) (h : ι) : EReal := x0 h * ((zeroW + ∑ k, x1 k * w k) + oneW)

/-- The image of a finite sum of reals is the sum of the images. -/
theorem coe_finsum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On real entries the folded row is the row with its residual: a·(s + 1) = a·s + a in ℝ. -/
theorem crossRowFolded_eq (x0 x1 w : ι → EReal) (h0 : ∀ k, ∃ r : ℝ, x0 k = (r : EReal))
    (h1 : ∀ k, ∃ r : ℝ, x1 k = (r : EReal)) (hw : ∀ k, ∃ r : ℝ, w k = (r : EReal)) :
    crossRowFolded x0 x1 w = crossRow x0 x1 w := by
  choose a ha using h0
  choose b hb using h1
  choose c hc using hw
  funext h
  have hs : (∑ k, x1 k * w k) = ((∑ k, b k * c k : ℝ) : EReal) := by
    rw [coe_finsum]
    exact Finset.sum_congr rfl fun k _ => by rw [hb k, hc k, EReal.coe_mul]
  have hz : (zeroW : EReal) = 0 := Ideal.ofBits_zero_f32
  have ho : (oneW : EReal) = 1 := Ideal.ofBits_one_f32
  unfold crossRowFolded crossRow
  rw [hs, ha h, hz, ho, zero_add, ← EReal.coe_one, ← EReal.coe_add,
    ← EReal.coe_mul, ← EReal.coe_mul, ← EReal.coe_add]
  exact congrArg _ (by ring)

/-- The whole result at row `r`, column `h`, as a function of the five argument arrays. -/
def outAt (x0 x1 : (⟨2, ![16384, 2048]⟩ : Shape).Idx → EReal) (w : (⟨2, ![2048, 1]⟩ : Shape).Idx → EReal)
    (g b : (⟨1, ![2048]⟩ : Shape).Idx → EReal) (r : Fin 16384) (h : Fin 2048) : EReal :=
  rowNorm (crossRow (fun k : Fin 2048 => x0 (ix2 r k)) (fun k : Fin 2048 => x1 (ix2 r k)) (fun k : Fin 2048 => w (ix2 k (0 : Fin 1))))
    (fun k : Fin 2048 => g (ix1 k)) (fun k : Fin 2048 => b (ix1 k)) h

/-- The same with the folded spelling of the row. -/
def outAtFolded (x0 x1 : (⟨2, ![16384, 2048]⟩ : Shape).Idx → EReal) (w : (⟨2, ![2048, 1]⟩ : Shape).Idx → EReal)
    (g b : (⟨1, ![2048]⟩ : Shape).Idx → EReal) (r : Fin 16384) (h : Fin 2048) : EReal :=
  rowNorm (crossRowFolded (fun k : Fin 2048 => x0 (ix2 r k)) (fun k : Fin 2048 => x1 (ix2 r k)) (fun k : Fin 2048 => w (ix2 k (0 : Fin 1))))
    (fun k : Fin 2048 => g (ix1 k)) (fun k : Fin 2048 => b (ix1 k)) h

/-- The result array: `outAt` at an index's two coordinates. -/
def out (x0 x1 : (⟨2, ![16384, 2048]⟩ : Shape).Idx → EReal) (w : (⟨2, ![2048, 1]⟩ : Shape).Idx → EReal)
    (g b : (⟨1, ![2048]⟩ : Shape).Idx → EReal) : (⟨2, ![16384, 2048]⟩ : Shape).Idx → EReal :=
  fun i => outAt x0 x1 w g b (i 0) (i 1)

/-- The result array in the folded spelling. -/
def outFolded (x0 x1 : (⟨2, ![16384, 2048]⟩ : Shape).Idx → EReal) (w : (⟨2, ![2048, 1]⟩ : Shape).Idx → EReal)
    (g b : (⟨1, ![2048]⟩ : Shape).Idx → EReal) : (⟨2, ![16384, 2048]⟩ : Shape).Idx → EReal :=
  fun i => outAtFolded x0 x1 w g b (i 0) (i 1)

/-- With real entries in x0, x1 and w the two spellings give one array. -/
theorem outFolded_eq (x0 x1 : (⟨2, ![16384, 2048]⟩ : Shape).Idx → EReal) (w : (⟨2, ![2048, 1]⟩ : Shape).Idx → EReal)
    (g b : (⟨1, ![2048]⟩ : Shape).Idx → EReal) (h0 : ∀ i, ∃ r : ℝ, x0 i = (r : EReal)) (h1 : ∀ i, ∃ r : ℝ, x1 i = (r : EReal))
    (hw : ∀ i, ∃ r : ℝ, w i = (r : EReal)) : outFolded x0 x1 w g b = out x0 x1 w g b := by
  funext i
  unfold outFolded out outAtFolded outAt
  rw [crossRowFolded_eq _ _ _ (fun k => h0 _) (fun k => h1 _) (fun k => hw _)]

end Cert.CrossNorm

end
-- ==== Proof.FiniteInputs.lean ====
/-
  FROM THE PRECONDITION TO REAL ENTRIES. The precondition `finite_inputs` computes, for each of the five float input
  arrays x, the conjunction over all entries of `|x i| < +∞` (the absolute value `max x (-x)`, compared strictly
  with the value of the f32 pattern `0x7F800000`, which is `⊤`), and joins the five answers by `and`. Over the extended
  reals `|x| < ⊤` excludes exactly `⊤` and `⊥`, so where the precondition answers 1 every entry of every input array
  is the image of a real number. Everything is read at one symbolic index through the reduction lemma for `and`;
  nothing is evaluated over the arrays.
-/
import proofs.«125513_j19902878449868_2_alg».proof.Pre_finite_inputs
import Idealize.ShloMosaic.Lib.ReduceAll
import Idealize.ShloMosaic.PureOps.Ideal

noncomputable section

namespace Cert.FiniteInputs

open Idealize.ShloMosaic
open Cert.Pre_finite_inputs

/-- The rank-0 shape has exactly one index. -/
instance : Subsingleton S_.Idx := ⟨fun a b => funext fun d => d.elim0⟩

/-- An extended real whose absolute value `max x (-x)` lies strictly below `+∞` (the value the f32 pattern
    `0x7F800000` denotes) is a real number: it is neither `⊤` nor `⊥`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- `jnp.all(|a| < +∞)` read back: if the reduction by `and`, over all axes, of the elementwise comparison
    `|a i| < +∞` is 1, then every entry of `a` is a real number. -/
theorem real_of_all_abs_lt_inf {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant S_ .f32 0x7F800000#32)))
          (constantI S_ 1 1#1) hr hu j = 1#1) (i : s.Idx) : ∃ r : ℝ, a i = (r : EReal) :=
  real_of_abs_lt_inf (a i) (Host.reduce_andi_all _ _ hr hu j e i)

/-- The precondition `finite_inputs` says `jnp.all(|x| < +∞)` of each of the five input arrays, the five
    answers joined by `and`. Read at the extended reals, where the result is 1: every entry of every input array
    is a real number (neither `+∞` nor `-∞`). -/
theorem real_of_pre [Cert.Pre_finite_inputs.Facts]
    (a0 a1 : FVec Ideal S16384x2048 .f32) (a2 : FVec Ideal S2048x1 .f32) (a3 a4 : FVec Ideal S2048 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h (fun d => d.elim0)
  dsimp only [fn, fn_part1, andi] at e
  simp only [IntOp.andi_eq_one] at e
  obtain ⟨⟨⟨⟨e0, e1⟩, e2⟩, e3⟩, e4⟩ := e
  exact ⟨real_of_all_abs_lt_inf a0 _ _ _ _ e0, real_of_all_abs_lt_inf a1 _ _ _ _ e1,
    real_of_all_abs_lt_inf a2 _ _ _ _ e2, real_of_all_abs_lt_inf a3 _ _ _ _ e3,
    real_of_all_abs_lt_inf a4 _ _ _ _ e4⟩

end Cert.FiniteInputs

end
-- ==== Proof.ReferenceValue.lean ====
/-
  The reference program's result is the specification.

  The reference computes, for every row r, the cross term s_r = Σ_k x1[r,k] · w[k,0], the row
  y[r,h] = x0[r,h] · s_r + x0[r,h], its mean μ_r = (0 + Σ_k y[r,k]) / 2048, the mean of its squared deviations
  σ²_r = (0 + Σ_k (y[r,k] − μ_r)²) / 2048, and the result (y[r,h] − μ_r) · rsqrt(σ²_r + ε) · γ[h] + β[h].
  Every intermediate array is read at an index given by its coordinates: a broadcast reads its operand at the
  coordinates it keeps, the contraction and the two row sums are sums over the column coordinate. The mean is
  broadcast along the row twice (once for the deviations that are squared, once for the deviations that are scaled);
  both broadcasts read the same entry, so both centred rows are y[r,·] − μ_r. The float words 0, 2048 and ε stay as
  the words the program spells and are never evaluated.
-/
import proofs.«125513_j19902878449868_2_alg».proof.Proof.Gen.ReferenceIdeal.Read
import proofs.«125513_j19902878449868_2_alg».proof.Proof.CrossNormSpec

noncomputable section

namespace Cert.ReferenceIdeal.RefValue

open Cert.ReferenceIdeal Cert.ReferenceIdeal.Read Cert.CrossNorm Idealize.ShloMosaic Idealize.ShloMosaic.ValueIdx

variable (x0 x1 : (⟨S16384x2048, .f32⟩ : BufTy).Contents (Elt Ideal)) (x2 : (⟨S2048x1, .f32⟩ : BufTy).Contents (Elt Ideal))
  (x3 x4 : (⟨S2048, .f32⟩ : BufTy).Contents (Elt Ideal))

/-- Row r of the matrix to be normalised: y[r,k] = x0[r,k] · (Σ_j x1[r,j] · w[j,0]) + x0[r,k]. -/
abbrev yRow (r : Fin 16384) : Fin 2048 → EReal :=
  crossRow (fun k : Fin 2048 => x0 (ix2 r k)) (fun k : Fin 2048 => x1 (ix2 r k)) (fun k : Fin 2048 => x2 (ix2 k (0 : Fin 1)))

/-- Row r's squared deviations from its mean. -/
abbrev devSq (r : Fin 16384) : Fin 2048 → EReal :=
  fun k => (yRow x0 x1 x2 r k - rowMean (yRow x0 x1 x2 r)) * (yRow x0 x1 x2 r k - rowMean (yRow x0 x1 x2 r))

/-! Index equations: each composed index function of the generated module, at an index given by coordinates. -/

theorem lidx_eq (r : Fin 16384) (c : Fin 1) (k : Fin 2048) : lidx_main_v0 (ix2 r c) k = ix2 r k :=
  funext fun a => Fin.ext (by match a with | ⟨0, _⟩ => rfl | ⟨1, _⟩ => rfl)
theorem ridx_eq (r : Fin 16384) (k : Fin 2048) : ridx_main_v0 (ix2 r (0 : Fin 1)) k = ix2 k (0 : Fin 1) :=
  funext fun a => Fin.ext (by match a with | ⟨0, _⟩ => rfl | ⟨1, _⟩ => rfl)
theorem idx1_eq (r : Fin 16384) (h : Fin 2048) : idx_main_v1 (ix2 r h) = ix2 r (0 : Fin 1) :=
  funext fun a => Fin.ext (by match a with | ⟨0, _⟩ => rfl | ⟨1, _⟩ => rfl)
theorem idx4_eq (r : Fin 16384) (k : Fin 2048) : idx_main_v4 (ix1 r) k = ix2 r k :=
  funext fun a => Fin.ext (by match a with | ⟨0, _⟩ => rfl | ⟨1, _⟩ => rfl)
theorem idx5_eq (r : Fin 16384) (c : Fin 1) : idx_main_v5 (ix2 r c) = ix1 r :=
  funext fun a => Fin.ext (by match a with | ⟨0, _⟩ => rfl)
theorem idx8_eq (r : Fin 16384) (h : Fin 2048) : idx_main_v8 (ix2 r h) = ix2 r (0 : Fin 1) :=
  funext fun a => Fin.ext (by match a with | ⟨0, _⟩ => rfl | ⟨1, _⟩ => rfl)
theorem idx11_eq (r : Fin 16384) (k : Fin 2048) : idx_main_v11 (ix1 r) k = ix2 r k :=
  funext fun a => Fin.ext (by match a with | ⟨0, _⟩ => rfl | ⟨1, _⟩ => rfl)
theorem idx12_eq (r : Fin 16384) (c : Fin 1) : idx_main_v12 (ix2 r c) = ix1 r :=
  funext fun a => Fin.ext (by match a with | ⟨0, _⟩ => rfl)
theorem idx15_eq (r : Fin 16384) (h : Fin 2048) : idx_main_v15 (ix2 r h) = ix2 r (0 : Fin 1) :=
  funext fun a => Fin.ext (by match a with | ⟨0, _⟩ => rfl | ⟨1, _⟩ => rfl)
theorem idx20_eq (r : Fin 16384) (h : Fin 2048) : idx_main_v20 (ix2 r h) = ix2 r (0 : Fin 1) :=
  funext fun a => Fin.ext (by match a with | ⟨0, _⟩ => rfl | ⟨1, _⟩ => rfl)
theorem idx23_eq (r : Fin 16384) (h : Fin 2048) : idx_main_v23 (ix2 r h) = ix2 (0 : Fin 1) h :=
  funext fun a => Fin.ext (by match a with | ⟨0, _⟩ => rfl | ⟨1, _⟩ => rfl)
theorem idx22_eq (c : Fin 1) (h : Fin 2048) : idx_main_v22 (ix2 c h) = ix1 h :=
  funext fun a => Fin.ext (by match a with | ⟨0, _⟩ => rfl)
theorem idx26_eq (r : Fin 16384) (h : Fin 2048) : idx_main_v26 (ix2 r h) = ix2 (0 : Fin 1) h :=
  funext fun a => Fin.ext (by match a with | ⟨0, _⟩ => rfl | ⟨1, _⟩ => rfl)
theorem idx25_eq (c : Fin 1) (h : Fin 2048) : idx_main_v25 (ix2 c h) = ix1 h :=
  funext fun a => Fin.ext (by match a with | ⟨0, _⟩ => rfl)

/-- The row with its residual: the sum x0 · s + x0 at (r, h) is y[r,h]. -/
theorem v3_at (r : Fin 16384) (h : Fin 2048) :
    val_main_v3 (F := Ideal) x0 x1 x2 (ix2 r h) = yRow x0 x1 x2 r h := by
  rw [val_main_v3_apply, val_main_v2_apply, val_main_v1_apply, val_main_v0_apply, idx1_eq]
  simp only [Ideal.addf_def, Ideal.mulf_def, lidx_eq, ridx_eq]
  rfl

/-- The mean column: the quotient (0 + Σ_k y[r,k]) / 2048 at row r is the mean of row r of y. -/
theorem v7_at (r : Fin 16384) :
    val_main_v7 (F := Ideal) x0 x1 x2 (ix2 r (0 : Fin 1)) = rowMean (yRow x0 x1 x2 r) := by
  rw [val_main_v7_apply, val_main_v5_apply, val_main_v6_apply, val_main_v4_apply, val_main_cst_apply, val_main_cst_0_apply, idx5_eq]
  simp only [Ideal.hostDivf_def, Ideal.ofBits_def, idx4_eq, v3_at]
  rfl

/-- The centred row, through the first broadcast of the mean. -/
theorem v9_at (r : Fin 16384) (h : Fin 2048) :
    val_main_v9 (F := Ideal) x0 x1 x2 (ix2 r h) = yRow x0 x1 x2 r h - rowMean (yRow x0 x1 x2 r) := by
  rw [val_main_v9_apply, val_main_v8_apply, idx8_eq, v3_at, v7_at, Ideal.subf_def]

/-- The centred row, through the second broadcast of the mean: the same value. -/
theorem v16_at (r : Fin 16384) (h : Fin 2048) :
    val_main_v16 (F := Ideal) x0 x1 x2 (ix2 r h) = yRow x0 x1 x2 r h - rowMean (yRow x0 x1 x2 r) := by
  rw [val_main_v16_apply, val_main_v15_apply, idx15_eq, v3_at, v7_at, Ideal.subf_def]

/-- The variance column: the quotient (0 + Σ_k (y[r,k] − μ_r)²) / 2048 at row r is the mean of the squared deviations of row r. -/
theorem v14_at (r : Fin 16384) :
    val_main_v14 (F := Ideal) x0 x1 x2 (ix2 r (0 : Fin 1)) = rowMean (devSq x0 x1 x2 r) := by
  rw [val_main_v14_apply, val_main_v12_apply, val_main_v13_apply, val_main_v11_apply, val_main_cst_1_apply, val_main_cst_2_apply, idx12_eq]
  simp only [Ideal.hostDivf_def, Ideal.ofBits_def, idx11_eq, val_main_v10_apply, Ideal.mulf_def, v9_at]
  rfl

/-- The scale column: at row r it is rsqrt(σ²_r + ε). -/
theorem v19_at (r : Fin 16384) :
    val_main_v19 (F := Ideal) x0 x1 x2 (ix2 r (0 : Fin 1)) = Ideal.rsqrt (rowMean (devSq x0 x1 x2 r) + epsW) := by
  rw [val_main_v19_apply, val_main_v18_apply, val_main_v17_apply, val_main_cst_3_apply, v14_at, Ideal.hostUnary_rsqrt_def, Ideal.addf_def, Ideal.ofBits_def]

/-- The specification at an index given by coordinates. -/
theorem out_at (r : Fin 16384) (h : Fin 2048) :
    Cert.CrossNorm.out x0 x1 x2 x3 x4 (ix2 r h)
      = rowNorm (yRow x0 x1 x2 r) (fun k : Fin 2048 => x3 (ix1 k)) (fun k : Fin 2048 => x4 (ix1 k)) h := rfl

/-- The reference program's result array is the specification: at every (r, h),
    (y[r,h] − μ_r) · rsqrt(σ²_r + ε) · γ[h] + β[h] with y[r,h] = x0[r,h] · (Σ_k x1[r,k] · w[k,0]) + x0[r,h],
    μ_r and σ²_r the mean and the mean squared deviation of row r of y. -/
theorem val_main_v27_eq_out (x0 x1 : (⟨Cert.ReferenceIdeal.S16384x2048, .f32⟩ : BufTy).Contents (Elt Ideal)) (x2 : (⟨Cert.ReferenceIdeal.S2048x1, .f32⟩ : BufTy).Contents (Elt Ideal)) (x3 x4 : (⟨Cert.ReferenceIdeal.S2048, .f32⟩ : BufTy).Contents (Elt Ideal)) :
    Cert.ReferenceIdeal.Read.val_main_v27 (F := Ideal) x0 x1 x2 x3 x4 = Cert.CrossNorm.out x0 x1 x2 x3 x4 := by
  funext i
  obtain ⟨r, h, rfl⟩ : ∃ (r : Fin 16384) (h : Fin 2048), i = ix2 r h := ⟨i 0, i 1, eq_ix2 i⟩
  rw [out_at, val_main_v27_apply, val_main_v24_apply, val_main_v21_apply, v16_at, val_main_v20_apply, idx20_eq, v19_at,
    val_main_v23_apply, val_main_v22_apply, val_main_v26_apply, val_main_v25_apply, idx23_eq, idx22_eq, idx26_eq, idx25_eq,
    Ideal.addf_def, Ideal.mulf_def, Ideal.mulf_def]
  rfl

end Cert.ReferenceIdeal.RefValue

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBlock.lean ====
/-
  The value the kernel body stores, at one index of its block.

  At a grid point the body holds a block of 512 rows of x0 and of x1 (all 2048 columns) and the three row operands
  w, γ, β as 1 × 2048 rows. For row p of the block it forms the cross term s_p = Σ_k x1[p,k] · w[0,k] by a lane
  sum kept as a column, the row y[p,h] = x0[p,h] · (s_p + 1), its mean μ_p and the mean σ²_p of the squared
  deviations (two more lane sums, each divided by 2048), and stores (y[p,q] − μ_p) · rsqrt(σ²_p + ε) · γ[0,q] + β[0,q].
  Read over the extended reals — a lane sum from the zero accumulator is the finite sum of the row, a column
  broadcast repeats a row's entry along the row, a row broadcast repeats the one row — this is the specification's
  row normalisation of the folded cross row of the loaded blocks.
-/
import proofs.«125513_j19902878449868_2_alg».proof.Proof.Gen.KernelIdeal.Skeleton
import proofs.«125513_j19902878449868_2_alg».proof.Proof.CrossNormSpec
import proofs.«125513_j19902878449868_2_alg».proof.Proof.LibKeepdimsSum
import proofs.«125513_j19902878449868_2_alg».proof.Proof.LibColumnBroadcast
import Idealize.ShloMosaic.Lib.ValueLayout

noncomputable section

namespace Cert.KernelIdeal.Body

open Cert.KernelIdeal Cert.KernelIdeal.Gen Idealize.ShloMosaic Idealize.ShloMosaic.ValueIdx Cert.CrossNorm Cert.KeepdimsSum

/-- A scalar float word read over the extended reals is the word's value. -/
theorem scalar_word (b : BitVec 32) : Scalar.ofBits (F := Ideal) .f32 b = Ideal.ofBits .f32 b := rfl

/-- The body's keepdims row sum at the block's own shapes: entry (p, 0) of the column is the finite sum of row p. -/
theorem keepSum (v : FVec Ideal S512x2048 .f32) (p : Fin 512) :
    shapeCast S512x1 (multiReduction .add [1] S512 v 0x00000000#32 reduces_S512x2048_S512 (.inl rfl) rfl) shapeCasts_S512_S512x1 (ix2 p (0 : Fin 1))
      = ∑ k : Fin 2048, v (ix2 p k) :=
  rowSum_column_apply (a := 512) (b := 2048) v reduces_S512x2048_S512 (.inl rfl) rfl shapeCasts_S512_S512x1 p 0

/-- The stored value at row p, column q of the block: the row normalisation of the folded cross row
    x0[p,·] · ((0 + Σ_k x1[p,k] · w[0,k]) + 1), scaled by γ[0,q] and shifted by β[0,q]. Each of the three lane sums is
    opened in turn and the index pushed through its summand. -/
theorem pay_apply (P0 P1 : FVec Ideal S512x2048 .f32) (P2 P3 P4 : FVec Ideal S1x2048 .f32) (p : Fin 512) (q : Fin 2048) :
    k0_pay1 (F := Ideal) P0 P1 P2 P3 P4 (ix2 p q)
      = rowNorm (crossRowFolded (fun k : Fin 2048 => P0 (ix2 p k)) (fun k : Fin 2048 => P1 (ix2 p k)) (fun k : Fin 2048 => P2 (ix2 (0 : Fin 1) k)))
          (fun k : Fin 2048 => P3 (ix2 (0 : Fin 1) k)) (fun k : Fin 2048 => P4 (ix2 (0 : Fin 1) k)) q := by
  unfold k0_pay1
  simp only [addf_apply, mulf_apply, subf_apply, divf_apply, broadcast_apply, Idealize.ShloMosaic.rsqrt, Ideal.rsqrt_def, shapeCast_self,
    broadcastTo_1b_ab_apply, broadcastTo_a1_ab_apply, scalar_word]
  repeat (rw [keepSum]; simp only [addf_apply, mulf_apply, subf_apply, divf_apply, broadcast_apply, shapeCast_self,
    broadcastTo_1b_ab_apply, broadcastTo_a1_ab_apply])
  simp only [rowNorm, rowMean, crossRowFolded, zeroW, oneW, widthW, epsW, Ideal.ofBits_zero_f32, zero_add]

end Cert.KernelIdeal.Body

end
-- ==== Proof.KernelArray.lean ====
/-
  From the kernel's blocks to its result array.

  The grid has 32 points; point t stages rows 512·t … 512·t + 511 (all 2048 columns) of x0 and of x1 and writes back
  the same rows of the result, while the three row operands w, γ, β — each reshaped to a 1 × 2048 row before the
  region — are staged whole at every point. So entry (p, k) of the x0 block at point t is x0[512·t + p, k], entry
  (0, k) of the w row is w[k, 0], and entry (0, k) of the γ and β rows is γ[k] and β[k]. With the body's stored value
  read at an index, what point t writes back is block t of ONE array: the row normalisation of the folded cross rows
  of the arguments. The 32 row blocks tile the 16384 rows (row r lies in block r / 512), so after the run the result
  buffer holds that array.
-/
import proofs.«125513_j19902878449868_2_alg».proof.Proof.Gen.KernelIdeal.Value
import proofs.«125513_j19902878449868_2_alg».proof.Proof.KernelBlock
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.Body Cert.CrossNorm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- The index maps, decided over the 32 grid points: the blocks of x0, x1 and of the result move down the rows with
    the point, and the three row operands stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- When the region is entered the w operand is the weight column reshaped to a row. -/
theorem V_w (c : Dev nD) : (V m c main_v0 : S1x2048.Idx → EReal) = shapeCast S1x2048 (m ((c : Thread nD τ).loc main_arg2)) shapeCasts_S2048x1_S1x2048 := by
  dsimp only [Gen.V, Gen.hostOps0]
  after_results
  rfl

/-- … the γ operand is ln_gamma reshaped to a row, -/
theorem V_g (c : Dev nD) : (V m c main_v1 : S1x2048.Idx → EReal) = shapeCast S1x2048 (m ((c : Thread nD τ).loc main_arg3)) shapeCasts_S2048_S1x2048 := by
  dsimp only [Gen.V, Gen.hostOps0]
  after_results
  rfl

/-- … and the β operand is ln_beta reshaped to a row. -/
theorem V_b (c : Dev nD) : (V m c main_v2 : S1x2048.Idx → EReal) = shapeCast S1x2048 (m ((c : Thread nD τ).loc main_arg4)) shapeCasts_S2048_S1x2048 := by
  dsimp only [Gen.V, Gen.hostOps0]
  after_results
  rfl

/-- A [2048, 1] column reshaped to a [1, 2048] row: entry (0, k) of the row is entry (k, 0) of the column. -/
theorem col_as_row (x : S2048x1.Idx → EReal) (k : Fin 2048) :
    shapeCast S1x2048 x shapeCasts_S2048x1_S1x2048 (ix2 (0 : Fin 1) k) = x (ix2 k (0 : Fin 1)) :=
  shapeCast_apply x shapeCasts_S2048x1_S1x2048 _ _ (by
    rw [Shape.rowMajor_val_two, Shape.rowMajor_val_two]
    show k.val * 1 + 0 = 0 * 2048 + k.val
    omega)

/-- Entry (p, k) of the x0 block at point t is x0 at row 512·t + p, column k. -/
theorem iblk0_apply (c : Dev nD) (t : Fin cfg0.N) (p : Fin 512) (k : Fin 2048) (r : Fin 16384) (hr : r.val = 512 * t.val + p.val) :
    (iblk m c 0 t : Vec Ideal S512x2048 .f32) (ix2 p k) = (m ((c : Thread nD τ).loc main_arg0) : S16384x2048.Idx → EReal) (ix2 r k) := by
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t 0 * 512 + 1 * p.val = r.val; rw [e00, hr]; omega
  | ⟨1, _⟩ => show win0_0.index t 1 * 2048 + 1 * k.val = k.val; rw [e01]; omega

/-- Entry (p, k) of the x1 block at point t is x1 at row 512·t + p, column k. -/
theorem iblk1_apply (c : Dev nD) (t : Fin cfg0.N) (p : Fin 512) (k : Fin 2048) (r : Fin 16384) (hr : r.val = 512 * t.val + p.val) :
    (iblk m c 1 t : Vec Ideal S512x2048 .f32) (ix2 p k) = (m ((c : Thread nD τ).loc main_arg1) : S16384x2048.Idx → EReal) (ix2 r k) := by
  obtain ⟨-, -, e10, e11, -⟩ := idx_facts t
  unfold iblk
  rw [View.read_apply]
  show V m c main_arg1 _ = _
  rw [V_main_arg1]
  refine congrArg _ (funext fun a => Fin.ext ?_)
  match a with
  | ⟨0, _⟩ => show win0_1.index t 0 * 512 + 1 * p.val = r.val; rw [e10, hr]; omega
  | ⟨1, _⟩ => show win0_1.index t 1 * 2048 + 1 * k.val = k.val; rw [e11]; omega

/-- Entry (0, k) of the staged w row is w[k, 0], at every point. -/
theorem iblk2_apply (c : Dev nD) (t : Fin cfg0.N) (k : Fin 2048) :
    (iblk m c 2 t : Vec Ideal S1x2048 .f32) (ix2 (0 : Fin 1) k) = (m ((c : Thread nD τ).loc main_arg2) : S2048x1.Idx → EReal) (ix2 k (0 : Fin 1)) := by
  obtain ⟨-, -, -, -, e20, e21, -⟩ := idx_facts t
  unfold iblk
  rw [View.read_apply]
  show V m c main_v0 _ = _
  rw [V_w]
  refine Eq.trans (congrArg _ (funext fun a => Fin.ext ?_)) (col_as_row _ k)
  match a with
  | ⟨0, _⟩ => show win0_2.index t 0 * 1 + 1 * 0 = 0; rw [e20]
  | ⟨1, _⟩ => show win0_2.index t 1 * 2048 + 1 * k.val = k.val; rw [e21]; omega

/-- Entry (0, k) of the staged γ row is γ[k], at every point. -/
theorem iblk3_apply (c : Dev nD) (t : Fin cfg0.N) (k : Fin 2048) :
    (iblk m c 3 t : Vec Ideal S1x2048 .f32) (ix2 (0 : Fin 1) k) = (m ((c : Thread nD τ).loc main_arg3) : S2048.Idx → EReal) (ix1 k) := by
  obtain ⟨-, -, -, -, -, -, e30, e31, -⟩ := idx_facts t
  unfold iblk
  rw [View.read_apply]
  show V m c main_v1 _ = _
  rw [V_g]
  refine Eq.trans (congrArg _ (funext fun a => Fin.ext ?_)) (shapeCast_a_1a_apply _ shapeCasts_S2048_S1x2048 (0 : Fin 1) k)
  match a with
  | ⟨0, _⟩ => show win0_3.index t 0 * 1 + 1 * 0 = 0; rw [e30]
  | ⟨1, _⟩ => show win0_3.index t 1 * 2048 + 1 * k.val = k.val; rw [e31]; omega

/-- Entry (0, k) of the staged β row is β[k], at every point. -/
theorem iblk4_apply (c : Dev nD) (t : Fin cfg0.N) (k : Fin 2048) :
    (iblk m c 4 t : Vec Ideal S1x2048 .f32) (ix2 (0 : Fin 1) k) = (m ((c : Thread nD τ).loc main_arg4) : S2048.Idx → EReal) (ix1 k) := by
  obtain ⟨-, -, -, -, -, -, -, -, e40, e41, -⟩ := idx_facts t
  unfold iblk
  rw [View.read_apply]
  show V m c main_v2 _ = _
  rw [V_b]
  refine Eq.trans (congrArg _ (funext fun a => Fin.ext ?_)) (shapeCast_a_1a_apply _ shapeCasts_S2048_S1x2048 (0 : Fin 1) k)
  match a with
  | ⟨0, _⟩ => show win0_4.index t 0 * 1 + 1 * 0 = 0; rw [e40]
  | ⟨1, _⟩ => show win0_4.index t 1 * 2048 + 1 * k.val = k.val; rw [e41]; omega

/-- Row normalisation depends only on the row, the scale and the shift. -/
theorem rowNorm_congr {y y' g g' b b' : Fin 2048 → EReal} (hy : y = y') (hg : g = g') (hb : b = b') (h : Fin 2048) :
    rowNorm y g b h = rowNorm y' g' b' h := by rw [hy, hg, hb]

/-- The folded cross row depends only on its three operand rows. -/
theorem crossRowFolded_congr {x0 x0' x1 x1' w w' : Fin 2048 → EReal} (h0 : x0 = x0') (h1 : x1 = x1') (hw : w = w') :
    crossRowFolded x0 x1 w = crossRowFolded x0' x1' w' := by rw [h0, h1, hw]

/-- The array the region leaves in the result buffer of core c. -/
abbrev G (c : Dev nD) : S16384x2048.Idx → EReal :=
  outFolded (m ((c : Thread nD τ).loc main_arg0)) (m ((c : Thread nD τ).loc main_arg1)) (m ((c : Thread nD τ).loc main_arg2))
    (m ((c : Thread nD τ).loc main_arg3)) (m ((c : Thread nD τ).loc main_arg4))

/-- What point t writes back is block t of `G`: at (p, q) of the block the body stored the row normalisation of the
    folded cross row of its loaded blocks, and those blocks are rows 512·t + p of x0 and x1 and the whole w, γ, β. -/
theorem flushed_eq (c : Dev nD) (t : Fin cfg0.N) :
    (dats m 0 c).flushed 5 t = ((cfg0.win 5).blk t).view.read (Elt Ideal) (G m c) := by
  rw [Cert.KernelIdeal.Value.flushed5]
  unfold out0_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  have hN : cfg0.N = 32 := N_0
  have ht : t.val < 32 := by have := t.isLt; omega
  have hp : p.val < 512 := p.isLt
  have hr : 512 * t.val + p.val < 16384 := by omega
  obtain ⟨-, -, -, -, -, -, -, -, -, -, e50, e51⟩ := idx_facts t
  have he : ((cfg0.win 5).blk t).view.emb (ix2 p q) = ix2 (⟨512 * t.val + p.val, hr⟩ : Fin 16384) q := by
    funext a; apply Fin.ext
    match a with
    | ⟨0, _⟩ => show win0_5.index t 0 * 512 + 1 * p.val = 512 * t.val + p.val; rw [e50]; omega
    | ⟨1, _⟩ => show win0_5.index t 1 * 2048 + 1 * q.val = q.val; rw [e51]; omega
  show k0_pay1 (F := Ideal) (iblk m c 0 t) (iblk m c 1 t) (iblk m c 2 t) (iblk m c 3 t) (iblk m c 4 t) (ix2 p q) = G m c (((cfg0.win 5).blk t).view.emb (ix2 p q))
  rw [he]
  refine (pay_apply (iblk m c 0 t) (iblk m c 1 t) (iblk m c 2 t) (iblk m c 3 t) (iblk m c 4 t) p q).trans ?_
  exact rowNorm_congr
    (crossRowFolded_congr (funext fun k => iblk0_apply m c t p k ⟨512 * t.val + p.val, hr⟩ rfl)
      (funext fun k => iblk1_apply m c t p k ⟨512 * t.val + p.val, hr⟩ rfl) (funext fun k => iblk2_apply m c t k))
    (funext fun k => iblk3_apply m c t k) (funext fun k => iblk4_apply m c t k) q

/-- An index of the result lies in point t's block iff each coordinate lies in the block's range on its axis. -/
theorem mem_blk (t : Fin cfg0.N) (i : S16384x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v3).slice (win0_5.rect t)).set ↔ _
  rw [View.set_slice_whole, Rect.mem_set_unit]
  exact Iff.rfl

/-- Every index of the result lies in some point's block: row r is in block r / 512. -/
theorem cover (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t 0 * 512 ≤ (i 0).val ∧ (i 0).val < win0_5.index t 0 * 512 + 512; rw [e50, ht]; omega
  | ⟨1, _⟩ => show win0_5.index t 1 * 2048 ≤ (i 1).val ∧ (i 1).val < win0_5.index t 1 * 2048 + 2048; rw [e51]; omega

/-- After the last point the result buffer holds `G`. -/
theorem final (c : Dev nD) : (dats m 0 c).arrAt 5 cfg0.N = G m c :=
  (dats m 0 c).arrAt_eq_of_cover 5 (G m c) (fun t _ => flushed_eq m c t) cover

/-- The kernel's run, read: the result buffer ends at `G` of the argument arrays, which end unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.ArrayValue

end
-- ==== Proof.lean ====
/-
  The cross layer with layer normalisation: the tiled kernel against the plain reference, over the extended reals.

  Both programs compute, for every row r of x0, x1 (16384 rows of 2048 entries), the cross term
  s_r = Σ_k x1[r,k] · w[k,0], a row y[r,·], and its layer normalisation
      out[r,h] = (y[r,h] − μ_r) · rsqrt(σ²_r + ε) · γ[h] + β[h],   μ_r = (Σ_k y[r,k]) / 2048,  σ²_r = (Σ_k (y[r,k] − μ_r)²) / 2048,
  and both return x0 unchanged beside it. The reference forms the row as y[r,h] = x0[r,h] · s_r + x0[r,h]; the kernel,
  32 blocks of 512 rows, forms it as x0[r,h] · (s_r + 1). The two are one function exactly where distributivity
  holds, that is where x0, x1 and w hold real numbers — which the precondition (every input finite) says. From there
  on the two programs apply the same operations to the same row, word for word (the same words for 2048 and ε, the
  same division, the same reciprocal square root), so nothing else needs the precondition.

  The three frames: the two kernel programs' are generated; the reference's is its generated run with the results
  dropped. The idealisation rewrote nothing, so `preserves` is trivial. The value claim: the kernel's result buffer
  ends at the folded-row array of its arguments (KernelArray), the reference's at the residual-row array of its
  arguments (ReferenceValue), the arguments agree, and on real entries the two arrays are equal (CrossNormSpec,
  FiniteInputs).
-/
import proofs.«125513_j19902878449868_2_alg».proof.Defs
import proofs.«125513_j19902878449868_2_alg».proof.Proof.Gen.Kernel
import proofs.«125513_j19902878449868_2_alg».proof.Proof.Gen.Kernel.Skeleton
import proofs.«125513_j19902878449868_2_alg».proof.Proof.Gen.Kernel.Launch
import proofs.«125513_j19902878449868_2_alg».proof.Proof.Gen.Kernel.Points
import proofs.«125513_j19902878449868_2_alg».proof.Proof.Gen.Kernel.Frame
import proofs.«125513_j19902878449868_2_alg».proof.Proof.Gen.KernelIdeal
import proofs.«125513_j19902878449868_2_alg».proof.Proof.Gen.KernelIdeal.Skeleton
import proofs.«125513_j19902878449868_2_alg».proof.Proof.Gen.KernelIdeal.Launch
import proofs.«125513_j19902878449868_2_alg».proof.Proof.Gen.KernelIdeal.Points
import proofs.«125513_j19902878449868_2_alg».proof.Proof.Gen.KernelIdeal.Frame
import proofs.«125513_j19902878449868_2_alg».proof.Proof.Gen.ReferenceIdeal
import proofs.«125513_j19902878449868_2_alg».proof.Proof.Gen.Pre_finite_inputs
import proofs.«125513_j19902878449868_2_alg».proof.Proof.Gen.KernelIdeal.Value
import proofs.«125513_j19902878449868_2_alg».proof.Proof.Gen.ReferenceIdeal.Run
import proofs.«125513_j19902878449868_2_alg».proof.Proof.Gen.ReferenceIdeal.Read
import proofs.«125513_j19902878449868_2_alg».proof.Proof.CrossNormSpec
import proofs.«125513_j19902878449868_2_alg».proof.Proof.FiniteInputs
import proofs.«125513_j19902878449868_2_alg».proof.Proof.ReferenceValue
import proofs.«125513_j19902878449868_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with its arguments unchanged: its generated run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- From arguments that agree and are finite, both runs end with x0 as the first result and, as the second, one array:
    the kernel's buffer holds the folded-row array, the reference's the residual-row array, and x0, x1, w being real
    the two are equal. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.KernelIdeal.ArrayValue.G m c, ?_, ?_⟩
  · exact (θ_run Cert.KernelIdeal.defs _ _).mono (fun r h c => ⟨(h c).2.1, (h c).1, (h c).2⟩)
      (Cert.KernelIdeal.ArrayValue.run m ρ)
  · refine (θ_run Cert.ReferenceIdeal.defs _ _).mono (fun r h c => ⟨(h c).1.trans (hagree c).1, ?_, (h c).2.2⟩)
      (Cert.ReferenceIdeal.Value.run (F := Ideal) m' ρ')
    obtain ⟨h0, h1, hw, -, -⟩ := Cert.FiniteInputs.real_of_pre _ _ _ _ _ (hpre c)
    rw [(h c).2.1, Cert.ReferenceIdeal.Read.val_main_v27_eq, Cert.ReferenceIdeal.RefValue.val_main_v27_eq_out,
      (hagree c).1, (hagree c).2.1, (hagree c).2.2.1, (hagree c).2.2.2.1, (hagree c).2.2.2.2]
    exact (Cert.CrossNorm.outFolded_eq _ _ _ _ _ h0 h1 hw).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
